-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg11 : FVec F S128x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_v48 main_v49 main_v50

def fn_part1 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S200000x128 .f32) (main_arg1 : FVec F S100000x128 .f32) (main_arg2 : IVec S600000 32) (main_arg3 : IVec S600000 32) (main_arg4 : IVec S600000 32) (main_arg5 : IVec S600000 32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_v13 main_v16
-- ==== Kernel.lean ====
abbrev S200000x128 : Shape := ⟨2, ![200000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S1x128 : Shape := ⟨2, ![1, 128]⟩
abbrev S5000x128 : Shape := ⟨2, ![5000, 128]⟩
abbrev S300000x128 : Shape := ⟨2, ![300000, 128]⟩

abbrev nBuf : Space → Nat
  | .hbm => 73
  | .vmem => 22
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S200000x128, .f32⟩
  | .hbm, ⟨52, _⟩ => ⟨S600000x1, .i32⟩
  | .hbm, ⟨53, _⟩ => ⟨S200000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S200000, .f32⟩
  | .hbm, ⟨58, _⟩ => ⟨S600000x1, .i32⟩
  | .hbm, ⟨59, _⟩ => ⟨S200000, .f32⟩
  | .hbm, ⟨60, _⟩ => ⟨S_, .f32⟩
  | .hbm, ⟨61, _⟩ => ⟨S200000, .f32⟩
  | .hbm, ⟨62, _⟩ => ⟨S200000, .f32⟩
  | .hbm, ⟨63, _⟩ => ⟨S200000x1, .f32⟩
  | .hbm, ⟨64, _⟩ => ⟨S200000x128, .f32⟩
  | .hbm, ⟨65, _⟩ => ⟨S200000x128, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S1x128, .f32⟩
  | .hbm, ⟨70, _⟩ => ⟨S1x128, .f32⟩
  | .hbm, ⟨71, _⟩ => ⟨S200000x128, .f32⟩
  | .hbm, ⟨72, _⟩ => ⟨S300000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_9 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S200000x128_S100000x128_S300000x128_d0 : Shape.Concatenates [S200000x128, S100000x128] S300000x128 0
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S200000x128.size a
  hwx1_1 : ∀ i : grid1.Coords, EltTy.bits .f32 = 32 ∨ (Rect.block (s := S200000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S200000x128.size a
  hwx1_7 : ∀ i : grid1.Coords, EltTy.bits .f32 = 32 ∨ (Rect.block (s := S200000x128) S5000x128.size (cc1_transform_7 i) (hinb1_7 i)).WholeWords (EltTy.packing .f32)

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S200000 : Shape := ⟨1, ![200000]⟩
abbrev S200000x1 : Shape := ⟨2, ![200000, 1]⟩
abbrev S300000x128 : Shape := ⟨2, ![300000, 128]⟩

abbrev nBuf : Space → Nat
  | .hbm => 93
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S200000x128, .f32⟩
  | .hbm, ⟨58, _⟩ => ⟨S600000x1, .i32⟩
  | .hbm, ⟨59, _⟩ => ⟨S200000x128, .f32⟩
  | .hbm, ⟨60, _⟩ => ⟨S_, .f32⟩
  | .hbm, ⟨61, _⟩ => ⟨S600000, .f32⟩
  | .hbm, ⟨62, _⟩ => ⟨S_, .f32⟩
  | .hbm, ⟨63, _⟩ => ⟨S200000, .f32⟩
  | .hbm, ⟨64, _⟩ => ⟨S600000x1, .i32⟩
  | .hbm, ⟨65, _⟩ => ⟨S200000, .f32⟩
  | .hbm, ⟨66, _⟩ => ⟨S_, .f32⟩
  | .hbm, ⟨67, _⟩ => ⟨S200000, .f32⟩
  | .hbm, ⟨68, _⟩ => ⟨S200000, .f32⟩
  | .hbm, ⟨69, _⟩ => ⟨S200000x1, .f32⟩
  | .hbm, ⟨70, _⟩ => ⟨S200000x128, .f32⟩
  | .hbm, ⟨71, _⟩ => ⟨S200000x128, .f32⟩
  | .hbm, ⟨72, _⟩ => ⟨S200000x128, .f32⟩
  | .hbm, ⟨73, _⟩ => ⟨S1x128, .f32⟩
  | .hbm, ⟨74, _⟩ => ⟨S200000x128, .f32⟩
  | .hbm, ⟨75, _⟩ => ⟨S200000x128, .f32⟩
  | .hbm, ⟨76, _⟩ => ⟨S200000x128, .f32⟩
  | .hbm, ⟨77, _⟩ => ⟨S200000x128, .f32⟩
  | .hbm, ⟨78, _⟩ => ⟨S200000x128, .f32⟩
  | .hbm, ⟨79, _⟩ => ⟨S1x128, .f32⟩
  | .hbm, ⟨80, _⟩ => ⟨S200000x128, .f32⟩
  | .hbm, ⟨81, _⟩ => ⟨S200000x128, .f32⟩
  | .hbm, ⟨82, _⟩ => ⟨S_, .f32⟩
  | .hbm, ⟨83, _⟩ => ⟨S200000x128, .f32⟩
  | .hbm, ⟨84, _⟩ => ⟨S200000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S300000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call0_cst : Ref sig .tc := ⟨.hbm, 82, rfl⟩
abbrev main_call0_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  concatenates_S200000x128_S100000x128_S300000x128_d0 : Shape.Concatenates [S200000x128, S100000x128] S300000x128 0
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S200000x128_S128x128_S200000x128_1_0_0_1_n_n_wf : DotDims.WF S200000x128 S128x128 S200000x128 [1] [0] [0] [1] [] []

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelRun.lean ====
/-
  The kernel's program, run: every weakly fair execution terminates with the result buffer holding what the
  last stretch of host operations leaves in it (the fold `W5` of the program's segments, read at the result),
  and with the argument arrays as launched.

  This is the frame's launch over the same five segments — host operations, first pallas_call, host
  operations, second pallas_call, host operations — with one more buffer read off the final thread state:
  the final state holds EVERY unscoped buffer at the last boundary's contents, and the frame reads only the
  arguments; here the result is read as well.
-/
import proofs.«165222_j7318624272988_1_alg».proof.Proof.Gen.KernelIdeal.Frame

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run with the result named: the result buffer at `W5`, the arguments unchanged. -/
theorem run_named : θ_run defs (onTc (τ := τ) (main (F := F))) ⟨m, fun _ => 0, ρ⟩ (fun r => ∀ c : Dev nD,
      r.2.mem ((c.tc : Thread nD τ).loc main_v44) = W5 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v44 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.Sage.Run

end
-- ==== Proof.HostValues.lean ====
/-
  The host side of the kernel's program: what each pallas_call finds in its operand arrays, and how the
  program's result is put together from the two calls' outputs.

  Before the first call the host computes, for each node type, the mean of the neighbours' features (a gather,
  two scatter-adds and a division): these are the reference's own stages `val_main_v18` / `val_main_v43`,
  operation for operation, and are carried as those names.  The bias vectors reach the calls reshaped to one
  row.  No host operation and no call writes an argument array, and the first call's output is not touched
  before the final concatenation, which joins the second call's output (the user nodes) above the first's
  (the item nodes).
-/
import proofs.«165222_j7318624272988_1_alg».proof.Proof.Gen.KernelIdeal.Frame
import proofs.«165222_j7318624272988_1_alg».proof.Proof.Gen.ReferenceIdeal.Read
import Idealize.ShloMosaic.Lib.ValueLayout

noncomputable section

namespace Cert.Sage.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A buffer no operation of a stretch writes holds after the stretch what it held before. -/
macro "not_written" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## What the first call finds -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  not_written

theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  not_written

theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  not_written

theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  not_written

theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  not_written

theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  not_written

theorem W1_arg11 (c : Dev nD) : W1 m ρ c (Proc.devRef .tc main_arg11) = m ((c : Thread nD τ).loc main_arg11) := by
  show StableHlo.after hostOps0 (W0 m ρ c) (Proc.devRef .tc main_arg11) = W0 m ρ c (Proc.devRef .tc main_arg11)
  not_written

theorem W1_arg12 (c : Dev nD) : W1 m ρ c (Proc.devRef .tc main_arg12) = m ((c : Thread nD τ).loc main_arg12) := by
  show StableHlo.after hostOps0 (W0 m ρ c) (Proc.devRef .tc main_arg12) = W0 m ρ c (Proc.devRef .tc main_arg12)
  not_written

theorem W1_arg13 (c : Dev nD) : W1 m ρ c (Proc.devRef .tc main_arg13) = m ((c : Thread nD τ).loc main_arg13) := by
  show StableHlo.after hostOps0 (W0 m ρ c) (Proc.devRef .tc main_arg13) = W0 m ρ c (Proc.devRef .tc main_arg13)
  not_written

theorem W1_arg14 (c : Dev nD) : W1 m ρ c (Proc.devRef .tc main_arg14) = m ((c : Thread nD τ).loc main_arg14) := by
  show StableHlo.after hostOps0 (W0 m ρ c) (Proc.devRef .tc main_arg14) = W0 m ρ c (Proc.devRef .tc main_arg14)
  not_written

/-- The item nodes' aggregated features: the mean of the user features over the incoming edges, computed by the
    same host operations as the reference's stage of that name. -/
theorem W1_v18 (c : Dev nD) : W1 m ρ c (Proc.devRef .tc main_v18)
    = Cert.ReferenceIdeal.Read.val_main_v18 (F := Ideal) (m ((c : Thread nD τ).loc main_arg0))
        (m ((c : Thread nD τ).loc main_arg2)) (m ((c : Thread nD τ).loc main_arg3)) := by
  show StableHlo.after hostOps0 (W0 m ρ c) (Proc.devRef .tc main_v18) = _
  after_results_simp
  rfl

/-- The user nodes' aggregated features, computed before the first call and used by the second. -/
theorem W1_v37 (c : Dev nD) : W1 m ρ c (Proc.devRef .tc main_v37)
    = Cert.ReferenceIdeal.Read.val_main_v43 (F := Ideal) (m ((c : Thread nD τ).loc main_arg1))
        (m ((c : Thread nD τ).loc main_arg4)) (m ((c : Thread nD τ).loc main_arg5)) := by
  show StableHlo.after hostOps0 (W0 m ρ c) (Proc.devRef .tc main_v37) = _
  after_results_simp
  rfl

/-- A bias vector reshaped to one row, read at `(0, k)`, is the vector at `k`. -/
theorem bias_row (x : FVec Ideal S128 .f32) (k : Fin 128) :
    shapeCast S1x128 x shapeCasts_S128_S1x128 (ValueIdx.ix2 (0 : Fin 1) k) = x (ValueIdx.ix1 k) :=
  ValueIdx.shapeCast_a_1a_apply x _ 0 k

theorem W1_v38 (c : Dev nD) : W1 m ρ c (Proc.devRef .tc main_v38)
    = shapeCast S1x128 (m ((c : Thread nD τ).loc main_arg7)) shapeCasts_S128_S1x128 := by
  show StableHlo.after hostOps0 (W0 m ρ c) (Proc.devRef .tc main_v38) = _
  after_results_simp
  rfl

theorem W1_v39 (c : Dev nD) : W1 m ρ c (Proc.devRef .tc main_v39)
    = shapeCast S1x128 (m ((c : Thread nD τ).loc main_arg15)) shapeCasts_S128_S1x128 := by
  show StableHlo.after hostOps0 (W0 m ρ c) (Proc.devRef .tc main_v39) = _
  after_results_simp
  rfl

/-! ## What the second call finds: the first call and the two reshapes between the calls write none of these -/

/-- Past the first call: a buffer that is none of its arrays is as the call found it. -/
theorem W3_of_W1 (c : Dev nD) (b : Ref sig .tc) (hb : ∀ w, Pipeline.arrRef spec0 w ≠ b)
    (h1 : StableHlo.after hostOps1 (W2 m ρ c) (Proc.devRef .tc b) = W2 m ρ c (Proc.devRef .tc b)) :
    W3 m ρ c (Proc.devRef .tc b) = W1 m ρ c (Proc.devRef .tc b) :=
  h1.trans (W2_of_ne m ρ c b hb)

theorem W3_arg0 (c : Dev nD) : W3 m ρ c (Proc.devRef .tc main_arg0) = m ((c : Thread nD τ).loc main_arg0) :=
  (W3_of_W1 m ρ c main_arg0 (by decide) (by not_written)).trans (W1_arg0 m ρ c)

theorem W3_arg9 (c : Dev nD) : W3 m ρ c (Proc.devRef .tc main_arg9) = m ((c : Thread nD τ).loc main_arg9) :=
  (W3_of_W1 m ρ c main_arg9 (by decide) (by not_written)).trans (W1_arg9 m ρ c)

theorem W3_arg11 (c : Dev nD) : W3 m ρ c (Proc.devRef .tc main_arg11) = m ((c : Thread nD τ).loc main_arg11) :=
  (W3_of_W1 m ρ c main_arg11 (by decide) (by not_written)).trans (W1_arg11 m ρ c)

theorem W3_arg12 (c : Dev nD) : W3 m ρ c (Proc.devRef .tc main_arg12) = m ((c : Thread nD τ).loc main_arg12) :=
  (W3_of_W1 m ρ c main_arg12 (by decide) (by not_written)).trans (W1_arg12 m ρ c)

theorem W3_v37 (c : Dev nD) : W3 m ρ c (Proc.devRef .tc main_v37)
    = Cert.ReferenceIdeal.Read.val_main_v43 (F := Ideal) (m ((c : Thread nD τ).loc main_arg1))
        (m ((c : Thread nD τ).loc main_arg4)) (m ((c : Thread nD τ).loc main_arg5)) :=
  (W3_of_W1 m ρ c main_v37 (by decide) (by not_written)).trans (W1_v37 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg13 (c : Dev nD) : W2 m ρ c (Proc.devRef .tc main_arg13) = m ((c : Thread nD τ).loc main_arg13) :=
  (W2_of_ne m ρ c main_arg13 (by decide)).trans (W1_arg13 m ρ c)

theorem W3_v41 (c : Dev nD) : W3 m ρ c (Proc.devRef .tc main_v41)
    = shapeCast S1x128 (m ((c : Thread nD τ).loc main_arg10)) shapeCasts_S128_S1x128 := by
  show StableHlo.after hostOps1 (W2 m ρ c) (Proc.devRef .tc main_v41) = _
  after_results_simp
  rw [W2_arg10]
  rfl

theorem W3_v42 (c : Dev nD) : W3 m ρ c (Proc.devRef .tc main_v42)
    = shapeCast S1x128 (m ((c : Thread nD τ).loc main_arg13)) shapeCasts_S128_S1x128 := by
  show StableHlo.after hostOps1 (W2 m ρ c) (Proc.devRef .tc main_v42) = _
  after_results_simp
  rw [W2_arg13]
  rfl

/-! ## The result: the second call's output joined above the first's -/

theorem W4_v43 (c : Dev nD) : W4 m ρ c (Proc.devRef .tc main_v43) = (dat1 (V3 m ρ) c).arrAt 7 cfg1.N :=
  W4_arr m ρ c 7

theorem W4_v40 (c : Dev nD) : W4 m ρ c (Proc.devRef .tc main_v40) = (dat0 (V1 m ρ) c).arrAt 7 cfg0.N :=
  calc W4 m ρ c (Proc.devRef .tc main_v40)
    _ = W3 m ρ c (Proc.devRef .tc main_v40) := W4_of_ne m ρ c main_v40 (by decide)
    _ = W2 m ρ c (Proc.devRef .tc main_v40) := by
          show StableHlo.after hostOps1 (W2 m ρ c) (Proc.devRef .tc main_v40) = _
          not_written
    _ = (dat0 (V1 m ρ) c).arrAt 7 cfg0.N := W2_arr m ρ c 7

theorem W5_v44 (c : Dev nD) : W5 m ρ c (Proc.devRef .tc main_v44)
    = concatenate S300000x128 0 [⟨S200000x128, W4 m ρ c (Proc.devRef .tc main_v43)⟩,
        ⟨S100000x128, W4 m ρ c (Proc.devRef .tc main_v40)⟩] concatenates_S200000x128_S100000x128_S300000x128_d0 := by
  show StableHlo.after hostOps2 (W4 m ρ c) (Proc.devRef .tc main_v44) = _
  after_results_simp

end Cert.Sage.Host

end
-- ==== Proof.SageSpec.lean ====
/-
  The layer both programs compute, as one function of its operand arrays, over the extended reals.

  For a node type with `n` nodes: `agg` is the mean of the neighbours' features, `x` the nodes' own features
  (both `n × 128`), `Wl`, `Wr`, `W` are `128 × 128` weights and `bl`, `b` bias rows.  Row `r` of the result
  depends on row `r` of `agg` and of `x` only:

      hidden[k] = (Σ_j agg[r,j]·Wl[j,k] + bl[k]) + Σ_j x[r,j]·Wr[j,k]
      out[c]    = max (Σ_k hidden[k]·W[k,c] + b[c]) 0

  `rowOut` is that function of the two rows; `layer` applies it row by row.  The additions are kept in the
  order both programs make them, so no law of the extended reals is needed to join the two sides.
-/
import Idealize.ShloMosaic.PureOps.Ideal
import Idealize.ShloMosaic.Lib.ValueIdx

noncomputable section

namespace Cert.Sage

open Idealize.ShloMosaic Idealize.ShloMosaic.ValueIdx

/-- The `128 × 128` weight matrices' shape. -/
abbrev SW : Shape := ⟨2, ![128, 128]⟩

/-- The hidden vector of one node: its aggregated row through `Wl`, plus the bias, plus its own row through `Wr`. -/
def hiddenRow (a x : Fin 128 → Ideal .f32) (Wl Wr : FVec Ideal SW .f32) (bl : Fin 128 → Ideal .f32)
    (k : Fin 128) : Ideal .f32 :=
  (∑ j : Fin 128, a j * Wl (ix2 j k) + bl k) + ∑ j : Fin 128, x j * Wr (ix2 j k)

/-- One node's output row: the hidden vector through `W`, plus the bias, clamped below at the zero word. -/
def rowOut (a x : Fin 128 → Ideal .f32) (Wl Wr W : FVec Ideal SW .f32) (bl b : Fin 128 → Ideal .f32)
    (c : Fin 128) : Ideal .f32 :=
  max (∑ k : Fin 128, hiddenRow a x Wl Wr bl k * W (ix2 k c) + b c) (Ideal.ofBits .f32 0x00000000#32)

/-- The layer on `n` nodes: `rowOut` of row `r` of `agg` and row `r` of `x`, for every row. -/
def layer {n : Nat} (agg x : FVec Ideal ⟨2, ![n, 128]⟩ .f32) (Wl Wr W : FVec Ideal SW .f32)
    (bl b : Fin 128 → Ideal .f32) : FVec Ideal ⟨2, ![n, 128]⟩ .f32 :=
  fun i => rowOut (fun j => agg (ix2 (i 0) j)) (fun j => x (ix2 (i 0) j)) Wl Wr W bl b (i 1)

theorem layer_apply {n : Nat} (agg x : FVec Ideal ⟨2, ![n, 128]⟩ .f32) (Wl Wr W : FVec Ideal SW .f32)
    (bl b : Fin 128 → Ideal .f32) (r : Fin n) (c : Fin 128) :
    layer agg x Wl Wr W bl b (ix2 r c)
      = rowOut (fun j => agg (ix2 r j)) (fun j => x (ix2 r j)) Wl Wr W bl b c := rfl

end Cert.Sage

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Payload.lean ====
/-
  The kernel body's stored value, read at an entry.

  The body loads a `5000 × 128` block of aggregated features and one of node features, the three weight
  matrices and the two `1 × 128` bias rows, and stores ONE value: at the ideal instance, where the changes of
  float format are the identity and a matrix product into the zero accumulator is the plain sum over the
  contracted axis, entry `(r, c)` of that value is `rowOut` of row `r` of the two blocks.
  Both pallas_calls run the same body, so the second payload is the first.
-/
import proofs.«165222_j7318624272988_1_alg».proof.Proof.Gen.KernelIdeal.Skeleton
import proofs.«165222_j7318624272988_1_alg».proof.Proof.SageSpec
import proofs.«165222_j7318624272988_1_alg».proof.Proof.LibSplitContraction
import Idealize.ShloMosaic.Lib.ValueLayout
import Idealize.ShloMosaic.Lib.Pipeline.Value

noncomputable section

namespace Cert.Sage.Kernel

open Cert.KernelIdeal Cert.KernelIdeal.Gen Idealize.ShloMosaic Idealize.ShloMosaic.ValueIdx Cert.Sage

/-- The body's one dimension record: `[5000,128] × [128,128] → [5000,128]`, contracting the inner axes. -/
abbrev D5 : DotDims S5000x128 S128x128 S5000x128 := dot_S5000x128_S128x128_S5000x128_1_0_0_1_n_n

theorem d5_l0 (i : S5000x128.Idx) (q : D5.contr.Idx) : (D5.lhsIdx i q 0).val = (i 0).val := by
  unfold DotDims.lhsIdx
  rw [dif_neg (show ¬(0 : Fin S5000x128.rank) ∈ D5.lhsBatch by decide),
    dif_pos (show (0 : Fin S5000x128.rank) ∈ D5.lhsNonContracting by decide)]
  rfl
theorem d5_l1 (i : S5000x128.Idx) (q : D5.contr.Idx) : (D5.lhsIdx i q 1).val = (q ⟨0, by decide⟩).val :=
  D5.lhsIdx_val_of_single rfl i q
theorem d5_r0 (i : S5000x128.Idx) (q : D5.contr.Idx) : (D5.rhsIdx i q 0).val = (q ⟨0, by decide⟩).val :=
  D5.rhsIdx_val_of_single rfl i q
theorem d5_r1 (i : S5000x128.Idx) (q : D5.contr.Idx) : (D5.rhsIdx i q 1).val = (i 1).val := by
  unfold DotDims.rhsIdx
  rw [dif_neg (show ¬(1 : Fin S128x128.rank) ∈ D5.rhsBatch by decide),
    dif_pos (show (1 : Fin S128x128.rank) ∈ D5.rhsNonContracting by decide)]
  rfl

/-- The body's matrix product into the zero accumulator, at entry `(r, c)`: the sum over the contracted axis. -/
theorem mm_at {φ₁ φ₂ : FTy} (lhs : FVec Ideal S5000x128 φ₁) (rhs : FVec Ideal S128x128 φ₂) (r : Fin 5000) (c : Fin 128) :
    FloatOps.matmul D5 none lhs rhs (constant (F := Ideal) S5000x128 .f32 0x00000000#32) (ix2 r c)
      = ∑ k : Fin 128, lhs (ix2 r k) * rhs (ix2 k c) :=
  Cert.Lib.SplitContraction.matmul_zero_at D5 rfl rfl d5_l0 d5_l1 d5_r0 d5_r1 none lhs rhs r c

/-- THE BODY'S VALUE at entry `(r, c)`: `rowOut` of row `r` of the two loaded blocks. -/
theorem pay0_at (a x : Vec Ideal S5000x128 .f32) (wl wr w : Vec Ideal S128x128 .f32) (bl b : Vec Ideal S1x128 .f32)
    (r : Fin 5000) (c : Fin 128) :
    k0_pay1 (F := Ideal) a x wl wr w bl b (ix2 r c)
      = rowOut (fun j => a (ix2 r j)) (fun j => x (ix2 r j)) wl wr w
          (fun k => bl (ix2 (0 : Fin 1) k)) (fun k => b (ix2 (0 : Fin 1) k)) c := by
  unfold k0_pay1
  simp only [maximumf_apply, addf_apply, broadcast_apply, truncf_apply, mm_at, shapeCast_self,
    broadcastTo_1b_ab_apply]
  rfl

/-- The second pallas_call's body is the first's. -/
theorem pay1_eq : @k1_pay1 Ideal _ = @k0_pay1 Ideal _ := rfl

end Cert.Sage.Kernel

end
-- ==== Proof.Region0.lean ====
/-
  The first pallas_call's output array after its run, as one function of the arrays the region finds.

  The grid has 20 points; point `t` works on rows `5000·t … 5000·t + 4999`: its two row blocks are those rows
  of the aggregated features and of the node features, the weight matrices and the bias rows are whole
  blocks at every point, and the block it writes back is those rows of the result.  The body's value at
  entry `(r, c)` of the block is `rowOut` of row `r` of the two row blocks, that is of row `5000·t + r` of
  the arrays, so each written block is the same block of the layer of the whole arrays; the 20 blocks
  cover the 100000 rows, hence the array ends holding the layer.
-/
import proofs.«165222_j7318624272988_1_alg».proof.Proof.Gen.KernelIdeal.Frame
import proofs.«165222_j7318624272988_1_alg».proof.Proof.Payload

noncomputable section

namespace Cert.Sage.Region0

open Cert.KernelIdeal Cert.KernelIdeal.Gen Idealize.ShloMosaic Idealize.ShloMosaic.TcCoe Idealize.ShloMosaic.ValueIdx Idealize.SL.Sem
open Idealize.ShloMosaic.Pipeline (Dat)
open Cert.Sage Cert.Sage.Kernel

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: the layer of the arrays the region finds. -/
abbrev G (c : Dev nD) : S100000x128.Idx → Elt Ideal .f32 :=
  layer (V c main_v18) (V c main_arg1) (V c main_arg6) (V c main_arg8) (V c main_arg14)
    (fun k => V c main_v38 (ix2 (0 : Fin 1) k)) (fun k => V c main_v39 (ix2 (0 : Fin 1) k))

/-- The printed index maps over the grid: the row windows are at block `t`, the others at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 20 := lt_of_lt_of_eq t.isLt N_0

/-- Row `r` of point `t`'s block is row `5000·t + r` of the array. -/
def row (t : Fin cfg0.N) (r : Fin 5000) : Fin 100000 := ⟨t.val * 5000 + r.val, by have := t_lt t; have := r.isLt; omega⟩

/-! ## The blocks, read where they sit in their arrays -/

theorem blk_0 (c : Dev nD) (t : Fin cfg0.N) (r : Fin 5000) (j : Fin 128) :
    (iblk0 V c 0 t : Vec Ideal S5000x128 .f32) (ix2 r j) = V c main_v18 (ix2 (row t r) j) := by
  obtain ⟨⟨e0, e1⟩, -⟩ := idx_facts t
  show V c main_v18 (((cfg0.win 0).blk t).view.emb (ix2 r j)) = V c main_v18 (ix2 (row t r) j)
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * j.val = j.val; rw [e1]; omega

theorem blk_1 (c : Dev nD) (t : Fin cfg0.N) (r : Fin 5000) (j : Fin 128) :
    (iblk0 V c 1 t : Vec Ideal S5000x128 .f32) (ix2 r j) = V c main_arg1 (ix2 (row t r) j) := by
  obtain ⟨-, ⟨e0, e1⟩, -⟩ := idx_facts t
  show V c main_arg1 (((cfg0.win 1).blk t).view.emb (ix2 r j)) = V c main_arg1 (ix2 (row t r) j)
  refine congrArg _ (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 128 + 1 * j.val = j.val; rw [e1]; omega

theorem blk_2 (c : Dev nD) (t : Fin cfg0.N) : (iblk0 V c 2 t : Vec Ideal S128x128 .f32) = V c main_arg6 := by
  obtain ⟨-, -, ⟨e0, e1⟩, -⟩ := idx_facts t
  funext y
  show V c main_arg6 (((cfg0.win 2).blk t).view.emb y) = V c main_arg6 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk_3 (c : Dev nD) (t : Fin cfg0.N) : (iblk0 V c 3 t : Vec Ideal S1x128 .f32) = V c main_v38 := by
  obtain ⟨-, -, -, ⟨e0, e1⟩, -⟩ := idx_facts t
  funext y
  show V c main_v38 (((cfg0.win 3).blk t).view.emb y) = V c main_v38 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk_4 (c : Dev nD) (t : Fin cfg0.N) : (iblk0 V c 4 t : Vec Ideal S128x128 .f32) = V c main_arg8 := by
  obtain ⟨-, -, -, -, ⟨e0, e1⟩, -⟩ := idx_facts t
  funext y
  show V c main_arg8 (((cfg0.win 4).blk t).view.emb y) = V c main_arg8 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk_5 (c : Dev nD) (t : Fin cfg0.N) : (iblk0 V c 5 t : Vec Ideal S128x128 .f32) = V c main_arg14 := by
  obtain ⟨-, -, -, -, -, ⟨e0, e1⟩, -⟩ := idx_facts t
  funext y
  show V c main_arg14 (((cfg0.win 5).blk t).view.emb y) = V c main_arg14 y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem blk_6 (c : Dev nD) (t : Fin cfg0.N) : (iblk0 V c 6 t : Vec Ideal S1x128 .f32) = V c main_v39 := by
  obtain ⟨-, -, -, -, -, -, ⟨e0, e1⟩, -⟩ := idx_facts t
  funext y
  show V c main_v39 (((cfg0.win 6).blk t).view.emb y) = V c main_v39 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Entry `(r, c)` of the written block sits at `(5000·t + r, c)` of the output array. -/
theorem emb_7 (t : Fin cfg0.N) (r : Fin 5000) (j : Fin 128) :
    ((cfg0.win 7).blk t).view.emb (ix2 r j) = ix2 (row t r) j := by
  obtain ⟨-, -, -, -, -, -, -, ⟨e0, e1⟩⟩ := idx_facts t
  refine funext fun a => Fin.ext ?_
  match a with
  | ⟨0, _⟩ => show win0_7.index t (0 : Fin 2) * 5000 + 1 * r.val = t.val * 5000 + r.val; rw [e0]; omega
  | ⟨1, _⟩ => show win0_7.index t (1 : Fin 2) * 128 + 1 * j.val = j.val; rw [e1]; omega

/-! ## What a point writes back, and the array after the run -/

/-- The body's value over blocks given as variables, with each block's reading as a hypothesis: entry `(r, c)` is
    the layer's entry at row `R`, when row `r` of the two row blocks is row `R` of the arrays. -/
theorem pay_eq_layer (agg x : FVec Ideal S100000x128 .f32) (Wl Wr W : FVec Ideal S128x128 .f32) (bl b : FVec Ideal S1x128 .f32)
    (a0 x0 : Vec Ideal S5000x128 .f32) (r : Fin 5000) (R : Fin 100000) (cc : Fin 128)
    (ha : ∀ j, a0 (ix2 r j) = agg (ix2 R j)) (hx : ∀ j, x0 (ix2 r j) = x (ix2 R j)) :
    k0_pay1 (F := Ideal) a0 x0 Wl Wr W bl b (ix2 r cc)
      = layer agg x Wl Wr W (fun k => bl (ix2 (0 : Fin 1) k)) (fun k => b (ix2 (0 : Fin 1) k)) (ix2 R cc) := by
  rw [pay0_at, layer_apply, funext ha, funext hx]

/-- WHAT POINT `t` WRITES BACK is block `t` of the layer of the arrays the region finds. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  rw [blk_2 V c t, blk_3 V c t, blk_4 V c t, blk_5 V c t, blk_6 V c t]
  funext y
  obtain ⟨r, cc, rfl⟩ : ∃ (r : Fin 5000) (cc : Fin 128), y = ix2 r cc := ⟨y 0, y 1, eq_ix2 y⟩
  show _ = G V c (((cfg0.win 7).blk t).view.emb (ix2 r cc))
  rw [emb_7 t r cc]
  exact pay_eq_layer (V c main_v18) (V c main_arg1) (V c main_arg6) (V c main_arg8) (V c main_arg14) (V c main_v38) (V c main_v39)
    _ _ r (row t r) cc (fun j => blk_0 V c t r j) (fun j => blk_1 V c t r j)

/-- An index of the output array is in point `t`'s block iff each coordinate is in the block's range. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v40).slice (win0_7.rect t)).set ↔ _
  rw [View.set_slice_whole, Rect.mem_set_unit]
  exact Iff.rfl

/-- Every row is in the block of the point `row / 5000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, ⟨e0, e1⟩⟩ := idx_facts t
  have ht : t.val = (i 0).val / 5000 := rfl
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- THE OUTPUT ARRAY after the run: the layer of the arrays the region finds. -/
theorem final (c : Dev nD) : (dat0 V c).arrAt 7 cfg0.N = G V c :=
  (dat0 V c).arrAt_eq_of_cover 7 (G V c) (fun t _ => flushed_eq V c t) (cover)

end Cert.Sage.Region0

end
-- ==== Proof.Region1.lean ====
/-
  The second pallas_call's output array after its run, as one function of the arrays the region finds.

  The grid has 40 points; point `t` works on rows `5000·t … 5000·t + 4999`: its two row blocks are those rows
  of the aggregated features and of the node features, the weight matrices and the bias rows are whole
  blocks at every point, and the block it writes back is those rows of the result.  The body's value at
  entry `(r, c)` of the block is `rowOut` of row `r` of the two row blocks, that is of row `5000·t + r` of
  the arrays, so each written block is the same block of the layer of the whole arrays; the 40 blocks
  cover the 200000 rows, hence the array ends holding the layer.
-/
import proofs.«165222_j7318624272988_1_alg».proof.Proof.Gen.KernelIdeal.Frame
import proofs.«165222_j7318624272988_1_alg».proof.Proof.Payload

noncomputable section

namespace Cert.Sage.Region1

open Cert.KernelIdeal Cert.KernelIdeal.Gen Idealize.ShloMosaic Idealize.ShloMosaic.TcCoe Idealize.ShloMosaic.ValueIdx Idealize.SL.Sem
open Idealize.ShloMosaic.Pipeline (Dat)
open Cert.Sage Cert.Sage.Kernel

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: the layer of the arrays the region finds. -/
abbrev G (c : Dev nD) : S200000x128.Idx → Elt Ideal .f32 :=
  layer (V c main_v37) (V c main_arg0) (V c main_arg9) (V c main_arg11) (V c main_arg12)
    (fun k => V c main_v41 (ix2 (0 : Fin 1) k)) (fun k => V c main_v42 (ix2 (0 : Fin 1) k))

/-- The printed index maps over the grid: the row windows are at block `t`, the others at block 0. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

theorem t_lt (t : Fin cfg1.N) : t.val < 40 := lt_of_lt_of_eq t.isLt N_1

/-- Row `r` of point `t`'s block is row `5000·t + r` of the array. -/
def row (t : Fin cfg1.N) (r : Fin 5000) : Fin 200000 := ⟨t.val * 5000 + r.val, by have := t_lt t; have := r.isLt; omega⟩

/-! ## The blocks, read where they sit in their arrays -/

theorem blk_0 (c : Dev nD) (t : Fin cfg1.N) (r : Fin 5000) (j : Fin 128) :
    (iblk1 V c 0 t : Vec Ideal S5000x128 .f32) (ix2 r j) = V c main_v37 (ix2 (row t r) j) := by
  obtain ⟨⟨e0, e1⟩, -⟩ := idx_facts t
  show V c main_v37 (((cfg1.win 0).blk t).view.emb (ix2 r j)) = V c main_v37 (ix2 (row t r) j)
  refine congrArg _ (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * j.val = j.val; rw [e1]; omega

theorem blk_1 (c : Dev nD) (t : Fin cfg1.N) (r : Fin 5000) (j : Fin 128) :
    (iblk1 V c 1 t : Vec Ideal S5000x128 .f32) (ix2 r j) = V c main_arg0 (ix2 (row t r) j) := by
  obtain ⟨-, ⟨e0, e1⟩, -⟩ := idx_facts t
  show V c main_arg0 (((cfg1.win 1).blk t).view.emb (ix2 r j)) = V c main_arg0 (ix2 (row t r) j)
  refine congrArg _ (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 128 + 1 * j.val = j.val; rw [e1]; omega

theorem blk_2 (c : Dev nD) (t : Fin cfg1.N) : (iblk1 V c 2 t : Vec Ideal S128x128 .f32) = V c main_arg9 := by
  obtain ⟨-, -, ⟨e0, e1⟩, -⟩ := idx_facts t
  funext y
  show V c main_arg9 (((cfg1.win 2).blk t).view.emb y) = V c main_arg9 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk_3 (c : Dev nD) (t : Fin cfg1.N) : (iblk1 V c 3 t : Vec Ideal S1x128 .f32) = V c main_v41 := by
  obtain ⟨-, -, -, ⟨e0, e1⟩, -⟩ := idx_facts t
  funext y
  show V c main_v41 (((cfg1.win 3).blk t).view.emb y) = V c main_v41 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem blk_4 (c : Dev nD) (t : Fin cfg1.N) : (iblk1 V c 4 t : Vec Ideal S128x128 .f32) = V c main_arg11 := by
  obtain ⟨-, -, -, -, ⟨e0, e1⟩, -⟩ := idx_facts t
  funext y
  show V c main_arg11 (((cfg1.win 4).blk t).view.emb y) = V c main_arg11 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem blk_5 (c : Dev nD) (t : Fin cfg1.N) : (iblk1 V c 5 t : Vec Ideal S128x128 .f32) = V c main_arg12 := by
  obtain ⟨-, -, -, -, -, ⟨e0, e1⟩, -⟩ := idx_facts t
  funext y
  show V c main_arg12 (((cfg1.win 5).blk t).view.emb y) = V c main_arg12 y
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem blk_6 (c : Dev nD) (t : Fin cfg1.N) : (iblk1 V c 6 t : Vec Ideal S1x128 .f32) = V c main_v42 := by
  obtain ⟨-, -, -, -, -, -, ⟨e0, e1⟩, -⟩ := idx_facts t
  funext y
  show V c main_v42 (((cfg1.win 6).blk t).view.emb y) = V c main_v42 y
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Entry `(r, c)` of the written block sits at `(5000·t + r, c)` of the output array. -/
theorem emb_7 (t : Fin cfg1.N) (r : Fin 5000) (j : Fin 128) :
    ((cfg1.win 7).blk t).view.emb (ix2 r j) = ix2 (row t r) j := by
  obtain ⟨-, -, -, -, -, -, -, ⟨e0, e1⟩⟩ := idx_facts t
  refine funext fun a => Fin.ext ?_
  match a with
  | ⟨0, _⟩ => show win1_7.index t (0 : Fin 2) * 5000 + 1 * r.val = t.val * 5000 + r.val; rw [e0]; omega
  | ⟨1, _⟩ => show win1_7.index t (1 : Fin 2) * 128 + 1 * j.val = j.val; rw [e1]; omega

/-! ## What a point writes back, and the array after the run -/

/-- The body's value over blocks given as variables, with each block's reading as a hypothesis: entry `(r, c)` is
    the layer's entry at row `R`, when row `r` of the two row blocks is row `R` of the arrays. -/
theorem pay_eq_layer (agg x : FVec Ideal S200000x128 .f32) (Wl Wr W : FVec Ideal S128x128 .f32) (bl b : FVec Ideal S1x128 .f32)
    (a0 x0 : Vec Ideal S5000x128 .f32) (r : Fin 5000) (R : Fin 200000) (cc : Fin 128)
    (ha : ∀ j, a0 (ix2 r j) = agg (ix2 R j)) (hx : ∀ j, x0 (ix2 r j) = x (ix2 R j)) :
    k1_pay1 (F := Ideal) a0 x0 Wl Wr W bl b (ix2 r cc)
      = layer agg x Wl Wr W (fun k => bl (ix2 (0 : Fin 1) k)) (fun k => b (ix2 (0 : Fin 1) k)) (ix2 R cc) := by
  rw [pay1_eq, pay0_at, layer_apply, funext ha, funext hx]

/-- WHAT POINT `t` WRITES BACK is block `t` of the layer of the arrays the region finds. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [blk_2 V c t, blk_3 V c t, blk_4 V c t, blk_5 V c t, blk_6 V c t]
  funext y
  obtain ⟨r, cc, rfl⟩ : ∃ (r : Fin 5000) (cc : Fin 128), y = ix2 r cc := ⟨y 0, y 1, eq_ix2 y⟩
  show _ = G V c (((cfg1.win 7).blk t).view.emb (ix2 r cc))
  rw [emb_7 t r cc]
  exact pay_eq_layer (V c main_v37) (V c main_arg0) (V c main_arg9) (V c main_arg11) (V c main_arg12) (V c main_v41) (V c main_v42)
    _ _ r (row t r) cc (fun j => blk_0 V c t r j) (fun j => blk_1 V c t r j)

/-- An index of the output array is in point `t`'s block iff each coordinate is in the block's range. -/
theorem mem_blk (t : Fin cfg1.N) (i : S200000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v43).slice (win1_7.rect t)).set ↔ _
  rw [View.set_slice_whole, Rect.mem_set_unit]
  exact Iff.rfl

/-- Every row is in the block of the point `row / 5000`. -/
theorem cover (i : S200000x128.Idx) :
    ∃ t : Fin cfg1.N, (cfg1.win 7).flush t = true ∧ i ∈ ((cfg1.win 7).blk t).view.set := by
  have hi0 : (i 0).val < 200000 := (i 0).isLt
  have hi1 : (i 1).val < 128 := (i 1).isLt
  let t : Fin cfg1.N := ⟨(i 0).val / 5000, by rw [show cfg1.N = 40 from N_1]; omega⟩
  obtain ⟨-, -, -, -, -, -, -, ⟨e0, e1⟩⟩ := idx_facts t
  have ht : t.val = (i 0).val / 5000 := rfl
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- THE OUTPUT ARRAY after the run: the layer of the arrays the region finds. -/
theorem final (c : Dev nD) : (dat1 V c).arrAt 7 cfg1.N = G V c :=
  (dat1 V c).arrAt_eq_of_cover 7 (G V c) (fun t _ => flushed_eq V c t) (cover)

end Cert.Sage.Region1

end
-- ==== Proof.RefLayer.lean ====
/-
  The reference's two results, read index by index: each is the layer of `SageSpec` applied to the
  aggregated neighbour features (kept as one opaque array: both programs compute it by the same host
  operations), the node features, the three weight matrices and the two bias vectors.

  The reference's matrix products are sums over the contracted axis, its biases are broadcast rows, and the
  final clamp is the maximum with the broadcast zero word; reading the generated stages at an index `(r, c)`
  gives exactly `rowOut` of row `r`.
-/
import proofs.«165222_j7318624272988_1_alg».proof.Proof.Gen.ReferenceIdeal.Read
import proofs.«165222_j7318624272988_1_alg».proof.Proof.SageSpec

noncomputable section

namespace Cert.Sage.Ref

open Cert.ReferenceIdeal Cert.ReferenceIdeal.Read Idealize.ShloMosaic Idealize.ShloMosaic.ValueIdx Cert.Sage

/-! ## The index maps of the reference's stages, at coordinates -/

section Item
variable (r : Fin 100000) (c k j : Fin 128)

theorem l55 : lidx_main_v55 (ix2 r c) k = ix2 r k :=
  funext fun a => Fin.ext (by match a with | ⟨0, _⟩ => rfl | ⟨1, _⟩ => rfl)
theorem r55 : ridx_main_v55 (ix2 r c) k = ix2 k c :=
  funext fun a => Fin.ext (by match a with | ⟨0, _⟩ => rfl | ⟨1, _⟩ => rfl)
theorem l19 : lidx_main_v19 (ix2 r k) j = ix2 r j :=
  funext fun a => Fin.ext (by match a with | ⟨0, _⟩ => rfl | ⟨1, _⟩ => rfl)
theorem r19 : ridx_main_v19 (ix2 r k) j = ix2 j k :=
  funext fun a => Fin.ext (by match a with | ⟨0, _⟩ => rfl | ⟨1, _⟩ => rfl)
theorem l23 : lidx_main_v23 (ix2 r k) j = ix2 r j :=
  funext fun a => Fin.ext (by match a with | ⟨0, _⟩ => rfl | ⟨1, _⟩ => rfl)
theorem r23 : ridx_main_v23 (ix2 r k) j = ix2 j k :=
  funext fun a => Fin.ext (by match a with | ⟨0, _⟩ => rfl | ⟨1, _⟩ => rfl)
theorem i21 : idx_main_v20 (idx_main_v21 (ix2 r k)) = ix1 k :=
  funext fun a => Fin.ext (by match a with | ⟨0, _⟩ => rfl)
theorem i57 : idx_main_v56 (idx_main_v57 (ix2 r c)) = ix1 c :=
  funext fun a => Fin.ext (by match a with | ⟨0, _⟩ => rfl)
end Item

section User
variable (r : Fin 200000) (c k j : Fin 128)

theorem l50 : lidx_main_v50 (ix2 r c) k = ix2 r k :=
  funext fun a => Fin.ext (by match a with | ⟨0, _⟩ => rfl | ⟨1, _⟩ => rfl)
theorem r50 : ridx_main_v50 (ix2 r c) k = ix2 k c :=
  funext fun a => Fin.ext (by match a with | ⟨0, _⟩ => rfl | ⟨1, _⟩ => rfl)
theorem l44 : lidx_main_v44 (ix2 r k) j = ix2 r j :=
  funext fun a => Fin.ext (by match a with | ⟨0, _⟩ => rfl | ⟨1, _⟩ => rfl)
theorem r44 : ridx_main_v44 (ix2 r k) j = ix2 j k :=
  funext fun a => Fin.ext (by match a with | ⟨0, _⟩ => rfl | ⟨1, _⟩ => rfl)
theorem l48 : lidx_main_v48 (ix2 r k) j = ix2 r j :=
  funext fun a => Fin.ext (by match a with | ⟨0, _⟩ => rfl | ⟨1, _⟩ => rfl)
theorem r48 : ridx_main_v48 (ix2 r k) j = ix2 j k :=
  funext fun a => Fin.ext (by match a with | ⟨0, _⟩ => rfl | ⟨1, _⟩ => rfl)
theorem i46 : idx_main_v45 (idx_main_v46 (ix2 r k)) = ix1 k :=
  funext fun a => Fin.ext (by match a with | ⟨0, _⟩ => rfl)
theorem i52 : idx_main_v51 (idx_main_v52 (ix2 r c)) = ix1 c :=
  funext fun a => Fin.ext (by match a with | ⟨0, _⟩ => rfl)
end User

/-! ## The two results -/

/-- The item nodes' result: the layer on the aggregated user features (stage `val_main_v18`, opaque here). -/
theorem item_eq (x0 : FVec Ideal S200000x128 .f32) (x1 : FVec Ideal S100000x128 .f32) (x2 x3 : IVec S600000 32)
    (x6 : FVec Ideal S128x128 .f32) (x7 : FVec Ideal S128 .f32) (x8 x14 : FVec Ideal S128x128 .f32)
    (x15 : FVec Ideal S128 .f32) :
    val_main_v59 (F := Ideal) x0 x1 x2 x3 x6 x7 x8 x14 x15
      = layer (val_main_v18 (F := Ideal) x0 x2 x3) x1 x6 x8 x14 (fun k => x7 (ix1 k)) (fun k => x15 (ix1 k)) := by
  funext i
  obtain ⟨r, c, rfl⟩ : ∃ (r : Fin 100000) (c : Fin 128), i = ix2 r c := ⟨i 0, i 1, eq_ix2 i⟩
  rw [layer_apply, val_main_v59_apply, val_main_v58_apply, val_main_v55_apply, val_main_v57_apply,
    val_main_v56_apply, val_main_call1_v0_apply, val_main_call1_cst_apply]
  simp only [val_main_v24_apply, val_main_v22_apply, val_main_v19_apply, val_main_v21_apply, val_main_v20_apply,
    val_main_v23_apply, l55, r55, l19, r19, l23, r23, i21, i57]
  rfl

/-- The user nodes' result: the layer on the aggregated item features (stage `val_main_v43`, opaque here). -/
theorem user_eq (x0 : FVec Ideal S200000x128 .f32) (x1 : FVec Ideal S100000x128 .f32) (x4 x5 : IVec S600000 32)
    (x9 : FVec Ideal S128x128 .f32) (x10 : FVec Ideal S128 .f32) (x11 x12 : FVec Ideal S128x128 .f32)
    (x13 : FVec Ideal S128 .f32) :
    val_main_v54 (F := Ideal) x0 x1 x4 x5 x9 x10 x11 x12 x13
      = layer (val_main_v43 (F := Ideal) x1 x4 x5) x0 x9 x11 x12 (fun k => x10 (ix1 k)) (fun k => x13 (ix1 k)) := by
  funext i
  obtain ⟨r, c, rfl⟩ : ∃ (r : Fin 200000) (c : Fin 128), i = ix2 r c := ⟨i 0, i 1, eq_ix2 i⟩
  rw [layer_apply, val_main_v54_apply, val_main_v53_apply, val_main_v50_apply, val_main_v52_apply,
    val_main_v51_apply, val_main_call0_v0_apply, val_main_call0_cst_apply]
  simp only [val_main_v49_apply, val_main_v47_apply, val_main_v44_apply, val_main_v46_apply, val_main_v45_apply,
    val_main_v48_apply, l50, r50, l44, r44, l48, r48, i46, i52]
  rfl

end Cert.Sage.Ref

end
-- ==== Proof.Whole.lean ====
/-
  The whole result, as one function of the sixteen argument arrays: the user nodes' layer above the item
  nodes' layer, each on its aggregated neighbour features (the reference's stages `val_main_v43` and
  `val_main_v18`, carried opaque).  The reference's result is this function of its arguments.
-/
import proofs.«165222_j7318624272988_1_alg».proof.Proof.RefLayer

noncomputable section

namespace Cert.Sage

open Cert.ReferenceIdeal Cert.ReferenceIdeal.Gen Cert.ReferenceIdeal.Read Idealize.ShloMosaic Idealize.ShloMosaic.ValueIdx

/-- The result of both programs: rows `0 … 199999` the user nodes' layer, rows `200000 … 299999` the item nodes'. -/
def result (a0 : FVec Ideal S200000x128 .f32) (a1 : FVec Ideal S100000x128 .f32) (a2 a3 a4 a5 : IVec S600000 32)
    (a6 : FVec Ideal S128x128 .f32) (a7 : FVec Ideal S128 .f32) (a8 a9 : FVec Ideal S128x128 .f32)
    (a10 : FVec Ideal S128 .f32) (a11 a12 : FVec Ideal S128x128 .f32) (a13 : FVec Ideal S128 .f32)
    (a14 : FVec Ideal S128x128 .f32) (a15 : FVec Ideal S128 .f32) : FVec Ideal S300000x128 .f32 :=
  concatenate S300000x128 0
    [⟨S200000x128, layer (val_main_v43 (F := Ideal) a1 a4 a5) a0 a9 a11 a12 (fun k => a10 (ix1 k)) (fun k => a13 (ix1 k))⟩,
     ⟨S100000x128, layer (val_main_v18 (F := Ideal) a0 a2 a3) a1 a6 a8 a14 (fun k => a7 (ix1 k)) (fun k => a15 (ix1 k))⟩]
    concatenates_S200000x128_S100000x128_S300000x128_d0

/-- The reference's last stage is `result` of its arguments. -/
theorem ref_eq (a0 : FVec Ideal S200000x128 .f32) (a1 : FVec Ideal S100000x128 .f32) (a2 a3 a4 a5 : IVec S600000 32)
    (a6 : FVec Ideal S128x128 .f32) (a7 : FVec Ideal S128 .f32) (a8 a9 : FVec Ideal S128x128 .f32)
    (a10 : FVec Ideal S128 .f32) (a11 a12 : FVec Ideal S128x128 .f32) (a13 : FVec Ideal S128 .f32)
    (a14 : FVec Ideal S128x128 .f32) (a15 : FVec Ideal S128 .f32) :
    val_main_v60 (F := Ideal) a0 a1 a2 a3 a4 a5 a6 a7 a8 a9 a10 a11 a12 a13 a14 a15
      = result a0 a1 a2 a3 a4 a5 a6 a7 a8 a9 a10 a11 a12 a13 a14 a15 := by
  unfold val_main_v60 result
  rw [Ref.user_eq, Ref.item_eq]

end Cert.Sage

end
-- ==== Proof.KernelValue.lean ====
/-
  The kernel's program ends with `result` of its arguments in the result buffer.

  Each pallas_call's output array is the layer of the arrays the call finds (`Region0.final`,
  `Region1.final`); what each call finds is read off the host operations before it (`HostValues`): the
  aggregated features, the node features and weights as launched, the bias vectors as one row; and the
  result is the second call's output joined above the first's.
-/
import proofs.«165222_j7318624272988_1_alg».proof.Proof.HostValues
import proofs.«165222_j7318624272988_1_alg».proof.Proof.Region0
import proofs.«165222_j7318624272988_1_alg».proof.Proof.Region1
import proofs.«165222_j7318624272988_1_alg».proof.Proof.Whole

noncomputable section

namespace Cert.Sage.Kernel

open Cert.KernelIdeal Cert.KernelIdeal.Gen Idealize.ShloMosaic Idealize.ShloMosaic.TcCoe Idealize.ShloMosaic.ValueIdx
open Idealize.SL.Sem Cert.Sage Cert.Sage.Host

variable (m : (ℓ : Loc nD τ sig) → Buf (Elt Ideal) ℓ) (ρ : Dev nD → PrngReg)

/-- The first call's output: the item nodes' layer. -/
theorem out_item (c : Dev nD) : W4 m ρ c (Proc.devRef .tc main_v40)
    = layer (Cert.ReferenceIdeal.Read.val_main_v18 (F := Ideal) (m ((c : Thread nD τ).loc main_arg0))
          (m ((c : Thread nD τ).loc main_arg2)) (m ((c : Thread nD τ).loc main_arg3)))
        (m ((c : Thread nD τ).loc main_arg1)) (m ((c : Thread nD τ).loc main_arg6)) (m ((c : Thread nD τ).loc main_arg8))
        (m ((c : Thread nD τ).loc main_arg14)) (fun k => m ((c : Thread nD τ).loc main_arg7) (ix1 k))
        (fun k => m ((c : Thread nD τ).loc main_arg15) (ix1 k)) := by
  rw [W4_v40, Region0.final (V1 m ρ) c]
  dsimp only [Region0.G, V1]
  rw [W1_v18, W1_arg1, W1_arg6, W1_arg8, W1_arg14, W1_v38, W1_v39]
  exact congrArg₂ _ (funext fun k => bias_row _ k) (funext fun k => bias_row _ k)

/-- The second call's output: the user nodes' layer. -/
theorem out_user (c : Dev nD) : W4 m ρ c (Proc.devRef .tc main_v43)
    = layer (Cert.ReferenceIdeal.Read.val_main_v43 (F := Ideal) (m ((c : Thread nD τ).loc main_arg1))
          (m ((c : Thread nD τ).loc main_arg4)) (m ((c : Thread nD τ).loc main_arg5)))
        (m ((c : Thread nD τ).loc main_arg0)) (m ((c : Thread nD τ).loc main_arg9)) (m ((c : Thread nD τ).loc main_arg11))
        (m ((c : Thread nD τ).loc main_arg12)) (fun k => m ((c : Thread nD τ).loc main_arg10) (ix1 k))
        (fun k => m ((c : Thread nD τ).loc main_arg13) (ix1 k)) := by
  rw [W4_v43, Region1.final (V3 m ρ) c]
  dsimp only [Region1.G, V3]
  rw [W3_v37, W3_arg0, W3_arg9, W3_arg11, W3_arg12, W3_v41, W3_v42]
  exact congrArg₂ _ (funext fun k => bias_row _ k) (funext fun k => bias_row _ k)

/-- THE RESULT BUFFER at the end: `result` of the argument arrays. -/
theorem result_eq (c : Dev nD) : W5 m ρ c (Proc.devRef .tc main_v44)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) := by
  rw [W5_v44, out_user, out_item]
  rfl

end Cert.Sage.Kernel

end
-- ==== Proof.lean ====
/-
  A two-type graph layer (mean aggregation over the incoming edges, two linear maps and a bias, then a third
  linear map, a bias and a clamp at zero), computed for the item nodes and for the user nodes and joined:
  the Pallas kernel's program against the jnp reference, equal over the extended reals.

  Both programs aggregate the neighbours' features by the same host operations, so the aggregated arrays are
  carried as opaque terms.  The kernel then runs one pallas_call per node type, row tile by row tile; the
  reference makes the same products on whole arrays.  At the ideal instance a matrix product is the sum over
  the contracted axis and a change of float format is the identity, and the two sides add their terms in the
  same order, so entry by entry both are `Cert.Sage.rowOut` of one row: no law of the extended reals, and
  so no finiteness, is needed.

  Modules: `SageSpec` (the layer as one function), `RefLayer` and `Whole` (the reference's stages are that
  function), `Payload` (the kernel body's value at an entry), `Region0` / `Region1` (each call's output array
  after its run), `HostValues` (what each call finds, and the final join), `KernelRun` (the kernel's program
  run, with the result buffer named), `KernelValue` (the result buffer holds the function of the arguments).
-/
import proofs.«165222_j7318624272988_1_alg».proof.Defs
import proofs.«165222_j7318624272988_1_alg».proof.Proof.Gen.Kernel
import proofs.«165222_j7318624272988_1_alg».proof.Proof.Gen.Kernel.Skeleton
import proofs.«165222_j7318624272988_1_alg».proof.Proof.Gen.Kernel.Launch
import proofs.«165222_j7318624272988_1_alg».proof.Proof.Gen.Kernel.Points
import proofs.«165222_j7318624272988_1_alg».proof.Proof.Gen.Kernel.Frame
import proofs.«165222_j7318624272988_1_alg».proof.Proof.Gen.KernelIdeal
import proofs.«165222_j7318624272988_1_alg».proof.Proof.Gen.KernelIdeal.Skeleton
import proofs.«165222_j7318624272988_1_alg».proof.Proof.Gen.KernelIdeal.Launch
import proofs.«165222_j7318624272988_1_alg».proof.Proof.Gen.KernelIdeal.Points
import proofs.«165222_j7318624272988_1_alg».proof.Proof.Gen.KernelIdeal.Frame
import proofs.«165222_j7318624272988_1_alg».proof.Proof.Gen.ReferenceIdeal
import proofs.«165222_j7318624272988_1_alg».proof.Proof.Gen.Pre_finite_inputs
import proofs.«165222_j7318624272988_1_alg».proof.Proof.Gen.ReferenceIdeal.Run
import proofs.«165222_j7318624272988_1_alg».proof.Proof.Gen.ReferenceIdeal.Read
import proofs.«165222_j7318624272988_1_alg».proof.Proof.KernelRun
import proofs.«165222_j7318624272988_1_alg».proof.Proof.KernelValue
import proofs.«165222_j7318624272988_1_alg».proof.Proof.Whole
import Idealize.ShloMosaic.Adequacy
import Idealize.ShloMosaic.Init

noncomputable section

namespace Cert.Proof

open Idealize.ShloMosaic Idealize.ShloMosaic.TcCoe Idealize.SL.Sem

/-- The three programs run and leave their arguments as launched: the two kernel programs by their generated
    frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel's program and the reference, run from memories agreeing on the arguments, both end
    with `Cert.Sage.result` of the arguments in their result buffers. -/
theorem algebraic : Cert.algebraic_KernelIdeal_ReferenceIdeal := by
  intro m ρ m' ρ' _ hagree
  refine ⟨fun c => Cert.Sage.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Sage.Kernel.result_eq m ρ c), (h c).2⟩)
      (Cert.Sage.Run.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15⟩ := hagree c
    rw [(h c).1, Cert.ReferenceIdeal.Read.val_main_v60_eq, Cert.Sage.ref_eq,
      e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
